-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S_ : Shape := ⟨0, ![]⟩
abbrev S128x128 : Shape := ⟨2, ![128, 128]⟩
abbrev S128 : Shape := ⟨1, ![128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  main_v37

def fn_part1 {F : FTy → Type} [FloatOps F] (main_arg5 : FVec F S128 .f32) (main_arg6 : FVec F S128 .f32) (main_arg7 : FVec F S128x128 .f32) (main_arg8 : FVec F S128 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128 .f32 := Host.absf main_arg5
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128 .f32 := Host.absf main_arg6
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128x128 .f32 := Host.absf main_arg7
  let main_cst_10 : FVec F S_ .f32 := constant S_ .f32 0x7F800000#32
  let main_v29 : FVec F S128x128 .f32 := broadcastInDim S128x128 ![] bcast_S_S128x128 main_cst_10
  let main_v30 : IVec S128x128 1 := cmpf .olt main_v28 main_v29
  let main_c_11 : IVec S_ 1 := constantI S_ 1 1#1
  let main_v31 : IVec S_ 1 := (fun x v => Host.reduce IntOp.andi x v reducesTo_S128x128_S_d0_1 h_S_) main_v30 main_c_11
  let main_v32 : IVec S_ 1 := andi main_v27 main_v31
  let main_v33 : FVec F S128 .f32 := Host.absf main_arg8
  fn_part2 (F := F) main_v32 main_v33

def fn {F : FTy → Type} [FloatOps F] (main_arg0 : FVec F S100000x128 .f32) (main_arg1 : IVec S2x1600000 32) (main_arg2 : FVec F S_ .f32) (main_arg3 : FVec F S128x128 .f32) (main_arg4 : FVec F S128 .f32) (main_arg5 : FVec F S128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x128 .f32 := Host.absf main_arg3
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg4
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg5 main_arg6 main_arg7 main_arg8 main_v12 main_v15 main_c_5
-- ==== Kernel.lean ====
abbrev S100000x128 : Shape := ⟨2, ![100000, 128]⟩
abbrev S2x1600000 : Shape := ⟨2, ![2, 1600000]⟩
abbrev S_ : Shape := ⟨0, ![]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 80
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S128x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S100000x128, .f32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v37) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S_ : Shape := ⟨0, ![]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S128x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call0_cst : Ref sig .tc := ⟨.hbm, 92, rfl⟩
abbrev main_call0_v0 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized program's run with its result named.

  @main is four segments: the host operations up to the first pipelined call, that call, the host operations between
  the calls (the batch statistics), and the second call.  The contents of every buffer at each boundary are a fold from
  the launch memory: host operations apply their functions, a call leaves each of its arrays at what its write-backs
  leave.  Every weakly fair execution terminates without fault with every unscoped buffer at the last boundary's
  contents; read at the result buffer this names the result, and read at the argument buffers it gives them back as
  launched.
-/
import proofs.«122284_j27934467293294_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the nine argument arrays as launched. -/
theorem result : θ_run defs (onTc (τ := τ) (main (F := F))) ⟨m, fun _ => 0, ρ⟩ (fun r => ∀ c : Dev nD,
      r.2.mem ((c.tc : Thread nD τ).loc main_v56) = W4 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v56 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«122284_j27934467293294_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.Spec.lean ====
/-
  The function both programs compute, entry by entry, on the extended reals.

  A graph layer's output is two affine layers with a batch normalization and a rectifier between them.  Here the two
  pieces that do not involve the batch statistics are written once, as plain functions of whole arrays:

  * `layer X W b` — an affine layer: entry (r, j) is  (∑ k, X (r, k) · W (k, j)) + b (0, j)  for a 100000×128 array
    `X`, a 128×128 matrix `W` and a one-row bias `b`;
  * `act H μ v γ β` — normalize, scale, shift, rectify: entry (r, k) is
    max ((γ (0, k) · (H (r, k) − μ (0, k))) · rsqrt (v (0, k) + ε) + β (0, k)) 0  for one-row arrays μ, v, γ, β,
    with ε the single-precision word 0x3727C5AC read as its exact value.

  The batch mean and variance rows themselves are sums down the 100000 rows of `H`; both programs compute them with
  the same host operations, so they stay as those operations' terms and are never opened here.
-/
import Idealize.ShloMosaic.PureOps.Ideal.Laws
import Idealize.ShloMosaic.Lib.ValueIdx

noncomputable section

open scoped BigOperators

namespace Cert.BatchNormMlp

open Idealize.ShloMosaic Idealize.ShloMosaic.ValueIdx

/-- Node features: 100000 rows of 128 channels. -/
abbrev Nodes : Shape := ⟨2, ![100000, 128]⟩
/-- A weight matrix, already transposed: input channel by output channel. -/
abbrev Weights : Shape := ⟨2, ![128, 128]⟩
/-- One value per channel, laid out as a single row. -/
abbrev Row : Shape := ⟨2, ![1, 128]⟩

/-- The variance offset, the word 0x3727C5AC at its exact value. -/
abbrev eps : EReal := Ideal.ofBits .f32 0x3727C5AC#32

/-- An affine layer at row `r`, output channel `j`. -/
def layerAt (X : FVec Ideal Nodes .f32) (W : FVec Ideal Weights .f32) (b : FVec Ideal Row .f32)
    (r : Fin 100000) (j : Fin 128) : EReal :=
  (∑ k : Fin 128, X (ix2 r k) * W (ix2 k j)) + b (ix2 (0 : Fin 1) j)

/-- An affine layer, as a whole array. -/
def layer (X : FVec Ideal Nodes .f32) (W : FVec Ideal Weights .f32) (b : FVec Ideal Row .f32) : FVec Ideal Nodes .f32 :=
  fun i => layerAt X W b (i 0) (i 1)

/-- Normalize by the channel's mean and variance, scale, shift and rectify, at row `r`, channel `k`. -/
def actAt (H : FVec Ideal Nodes .f32) (μ v γ β : FVec Ideal Row .f32) (r : Fin 100000) (k : Fin 128) : EReal :=
  max ((γ (ix2 (0 : Fin 1) k) * (H (ix2 r k) - μ (ix2 (0 : Fin 1) k))) * Ideal.rsqrt (v (ix2 (0 : Fin 1) k) + eps)
    + β (ix2 (0 : Fin 1) k)) 0

/-- The same as a whole array. -/
def act (H : FVec Ideal Nodes .f32) (μ v γ β : FVec Ideal Row .f32) : FVec Ideal Nodes .f32 :=
  fun i => actAt H μ v γ β (i 0) (i 1)

theorem layer_apply (X : FVec Ideal Nodes .f32) (W : FVec Ideal Weights .f32) (b : FVec Ideal Row .f32)
    (r : Fin 100000) (j : Fin 128) : layer X W b (ix2 r j) = layerAt X W b r j := rfl

theorem act_apply (H : FVec Ideal Nodes .f32) (μ v γ β : FVec Ideal Row .f32) (r : Fin 100000) (k : Fin 128) :
    act H μ v γ β (ix2 r k) = actAt H μ v γ β r k := rfl

end Cert.BatchNormMlp

end
-- ==== Proof.KernelBodies.lean ====
/-
  What each kernel body stores, read at an entry of its block, at the ideal instance.

  The first body multiplies its 10000×128 block by the whole 128×128 matrix and adds the bias row: entry (p, q) of what
  it stores is (∑ k, x (p, k) · w (k, q)) + b (0, q)  — the narrowing to a shorter float format before the product is
  the identity on extended reals.  The second body first normalizes, scales, shifts and rectifies its block entry by
  entry with the four one-row operands, and then does the same product and bias.
-/
import proofs.«122284_j27934467293294_1_alg».proof.Proof.Gen.KernelIdeal.Skeleton
import proofs.«122284_j27934467293294_1_alg».proof.Proof.LibAffineBlock
import proofs.«122284_j27934467293294_1_alg».proof.Proof.Spec

noncomputable section

open scoped BigOperators

namespace Cert.KernelIdeal.Bodies

open Cert.KernelIdeal Cert.KernelIdeal.Gen Idealize.ShloMosaic Idealize.ShloMosaic.ValueIdx

/-- The first body's stored value at (p, q): the product row by column, plus the bias row's entry. -/
theorem first_apply (x : Vec Ideal S10000x128 .f32) (w : Vec Ideal S128x128 .f32) (b : Vec Ideal S1x128 .f32)
    (p : Fin 10000) (q : Fin 128) :
    k0_pay1 (F := Ideal) x w b (ix2 p q) = (∑ k : Fin 128, x (ix2 p k) * w (ix2 k q)) + b (ix2 (0 : Fin 1) q) := by
  unfold k0_pay1
  simp only [shapeCast_self]
  exact Cert.LibAffineBlock.affine_apply dot_S10000x128_S128x128_S10000x128_1_0_0_1_n_n rfl rfl rfl rfl rfl rfl none _ _ _ _ p q

/-- The rectified, normalized block entry the second body feeds to its product. -/
def rect (h : Vec Ideal S10000x128 .f32) (v γ μ β : Vec Ideal S1x128 .f32) (p : Fin 10000) (k : Fin 128) : EReal :=
  max ((γ (ix2 (0 : Fin 1) k) * (h (ix2 p k) - μ (ix2 (0 : Fin 1) k))) * Ideal.rsqrt (v (ix2 (0 : Fin 1) k) + Cert.BatchNormMlp.eps)
    + β (ix2 (0 : Fin 1) k)) 0

/-- The second body's stored value at (p, q). -/
theorem second_apply (h : Vec Ideal S10000x128 .f32) (v γ μ β : Vec Ideal S1x128 .f32) (w : Vec Ideal S128x128 .f32)
    (b : Vec Ideal S1x128 .f32) (p : Fin 10000) (q : Fin 128) :
    k1_pay1 (F := Ideal) h v γ μ β w b (ix2 p q)
      = (∑ k : Fin 128, rect h v γ μ β p k * w (ix2 k q)) + b (ix2 (0 : Fin 1) q) := by
  unfold k1_pay1
  simp only [shapeCast_self]
  refine (Cert.LibAffineBlock.affine_apply dot_S10000x128_S128x128_S10000x128_1_0_0_1_n_n rfl rfl rfl rfl rfl rfl none _ _ _ _ p q).trans ?_
  refine congrArg (· + b (ix2 (0 : Fin 1) q)) (Finset.sum_congr rfl fun k _ => congrArg (· * w (ix2 k q)) ?_)
  rw [truncf_apply, maximumf_apply, addf_apply, mulf_apply, mulf_apply, subf_apply,
    broadcastTo_1b_ab_apply γ _ p k, broadcastTo_1b_ab_apply μ _ p k, broadcastTo_1b_ab_apply β _ p k,
    broadcastTo_1b_ab_apply _ _ p k, broadcast_apply, Ideal.ofBits_def, Ideal.ofBits_def, Ideal.ofBits_zero_f32]
  rfl

end Cert.KernelIdeal.Bodies

end
-- ==== Proof.KernelBlocks.lean ====
/-
  From blocks to whole arrays, for both pipelined calls, whatever the buffers hold when the call is entered.

  Each call walks ten grid points; at point `t` it stages rows 10000·t … 10000·t + 9999 of its row-blocked operand,
  the whole of every other operand, and writes back rows 10000·t … of its result.  So what point `t` writes back is
  block `t` of one whole-array function of the operands as the call finds them — the affine layer for the first call,
  the affine layer of the normalized, rectified array for the second — and the ten blocks cover all 100000 rows: the row
  `r` is in the block of the point `r / 10000`.  Hence each result array, after its call, IS that function.
-/
import proofs.«122284_j27934467293294_1_alg».proof.Proof.Gen.KernelIdeal.Frame
import proofs.«122284_j27934467293294_1_alg».proof.Proof.KernelBodies
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.BatchNormMlp
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The pure step: a block entry of the layer is the array's entry -/

/-- If row `p` of a block is row `i 0` of the array, and the matrix and bias row are the whole ones, the block's
    affine-layer entry (p, q) is the array's at `i`, where `q` is `i`'s column. -/
theorem layer_of_block (X : FVec Ideal Nodes .f32) (W : FVec Ideal Weights .f32) (b : FVec Ideal Row .f32)
    (x : Fin 128 → EReal) (w : Fin 128 → EReal) (b' : EReal) (i : Nodes.Idx)
    (hx : ∀ k : Fin 128, x k = X (ix2 (i 0) k)) (hw : ∀ k : Fin 128, w k = W (ix2 k (i 1)))
    (hb : b' = b (ix2 (0 : Fin 1) (i 1))) :
    (∑ k : Fin 128, x k * w k) + b' = layer X W b i := by
  unfold layer layerAt
  rw [hb]
  exact congrArg (· + b (ix2 (0 : Fin 1) (i 1))) (Finset.sum_congr rfl fun k _ => by rw [hx k, hw k])

/-! ## The first call -/

/-- The printed index maps over the ten points: the row-blocked operand moves with the result, block `t` at point
    `t`; the matrix and the bias row stay at block 0. -/
theorem maps_first : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem onto_first : ∀ q : Fin 10, ∃ t : Fin cfg0.N, win0_3.index t = ![q.val, 0] :=
  (by decide +kernel : ∀ q : Fin 10, ∃ t : Fin grid0.N, win0_3.index t = ![q.val, 0])

/-- What point `t` of the first call writes back is block `t` of the affine layer of the operands as found. -/
theorem flushed_first (c : Dev nD) (t : Fin cfg0.N) :
    (dat0 V c).flushed 3 t = ((cfg0.win 3).blk t).view.read (Elt Ideal)
      (layer (V c main_v37) (V c main_v38) (V c main_v40)) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin,
    View.ld_unit_zero (S := S1x128) origin]
  obtain ⟨e0, e1, e2, e3, e4, e5, e6, e7⟩ := maps_first t
  funext j
  obtain ⟨p, q, rfl⟩ : ∃ (p : Fin 10000) (q : Fin 128), j = ix2 p q := ⟨j 0, j 1, eq_ix2 j⟩
  refine (Bodies.first_apply _ _ _ p q).trans ?_
  refine layer_of_block _ _ _ _ _ _ _ (fun k => ?_) (fun k => ?_) ?_
  · show V c main_v37 (((cfg0.win 0).blk t).view.emb (ix2 p k)) = V c main_v37 _
    refine congrArg (V c main_v37) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  · show V c main_v38 (((cfg0.win 1).blk t).view.emb (ix2 k q)) = V c main_v38 _
    refine congrArg (V c main_v38) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_v40 (((cfg0.win 2).blk t).view.emb (ix2 (0 : Fin 1) q)) = V c main_v40 _
    refine congrArg (V c main_v40) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index is in point `t`'s block iff each coordinate is in the block's range on its axis. -/
theorem mem_first (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v44).slice (win0_3.rect t)).set ↔ _
  rw [View.set_slice_whole, Rect.mem_set_unit]
  exact Iff.rfl

/-- Every index is in the block of the point its row falls in. -/
theorem cover_first (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto_first ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_first]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the first call its result array is the affine layer of its three operands as the call found them. -/
theorem first_array (c : Dev nD) :
    (dat0 V c).arrAt 3 cfg0.N = layer (V c main_v37) (V c main_v38) (V c main_v40) :=
  (dat0 V c).arrAt_eq_of_cover 3 _ (fun t _ => flushed_first V c t) cover_first

/-! ## The second call -/

/-- If a block entry and the four per-channel values are the arrays' own, the block's normalized, rectified entry is
    the array's. -/
theorem act_of_block (H : FVec Ideal Nodes .f32) (μ v γ β : FVec Ideal Row .f32) (h μ' v' γ' β' : EReal)
    (i : Nodes.Idx) (k : Fin 128)
    (hh : h = H (ix2 (i 0) k)) (hμ : μ' = μ (ix2 (0 : Fin 1) k)) (hv : v' = v (ix2 (0 : Fin 1) k))
    (hγ : γ' = γ (ix2 (0 : Fin 1) k)) (hβ : β' = β (ix2 (0 : Fin 1) k)) :
    max ((γ' * (h - μ')) * Ideal.rsqrt (v' + eps) + β') 0 = act H μ v γ β (ix2 (i 0) k) := by
  subst hh hμ hv hγ hβ
  rfl

/-- The printed index maps over the ten points: the row-blocked operand moves with the result; the five one-row
    operands and the matrix stay at block 0. -/
theorem maps_second : ∀ t : Fin cfg1.N, win1_0.index t (0 : Fin 2) = win1_7.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 9 :=
  (by decide +kernel : ∀ t : Fin grid1.N, _)

/-- Every one of the ten row blocks is some point's. -/
theorem onto_second : ∀ q : Fin 10, ∃ t : Fin cfg1.N, win1_7.index t = ![q.val, 0] :=
  (by decide +kernel : ∀ q : Fin 10, ∃ t : Fin grid1.N, win1_7.index t = ![q.val, 0])

/-- What point `t` of the second call writes back is block `t` of the affine layer of the normalized, rectified
    array, all operands as the call found them. -/
theorem flushed_second (c : Dev nD) (t : Fin cfg1.N) :
    (dat1 V c).flushed 7 t = ((cfg1.win 7).blk t).view.read (Elt Ideal)
      (layer (act (V c main_v44) (V c main_v48) (V c main_v55) (V c main_v42) (V c main_v43))
        (V c main_v39) (V c main_v41)) := by
  show (cfg1.win 7).cut (grid1.coords t) ((dat1 V c).after 7 t) = _
  rw [after1_7]
  unfold out1_7
  rw [View.canon_unit_zero origin]
  simp only [View.ld_unit_zero (S := S10000x128) origin, View.ld_unit_zero (S := S128x128) origin,
    View.ld_unit_zero (S := S1x128) origin]
  obtain ⟨e0, e1, e2, e3, e4, e5, e6, e7, e8, e9, e10, e11, e12, e13, e14, e15⟩ := maps_second t
  funext j
  obtain ⟨p, q, rfl⟩ : ∃ (p : Fin 10000) (q : Fin 128), j = ix2 p q := ⟨j 0, j 1, eq_ix2 j⟩
  refine (Bodies.second_apply _ _ _ _ _ _ _ p q).trans ?_
  refine layer_of_block _ _ _ _ _ _ _ (fun k => ?_) (fun k => ?_) ?_
  · unfold Bodies.rect
    refine act_of_block _ _ _ _ _ _ _ _ _ _ _ k ?_ ?_ ?_ ?_ ?_
    · show V c main_v44 (((cfg1.win 0).blk t).view.emb (ix2 p k)) = V c main_v44 _
      refine congrArg (V c main_v44) (funext fun a => Fin.ext ?_)
      match a with
      | ⟨0, _⟩ => show win1_0.index t (0 : Fin 2) * 10000 + 1 * p.val = win1_7.index t (0 : Fin 2) * 10000 + 1 * p.val; omega
      | ⟨1, _⟩ => show win1_0.index t (1 : Fin 2) * 128 + 1 * k.val = k.val; omega
    · show V c main_v48 (((cfg1.win 1).blk t).view.emb (ix2 (0 : Fin 1) k)) = V c main_v48 _
      refine congrArg (V c main_v48) (funext fun a => Fin.ext ?_)
      match a with
      | ⟨0, _⟩ => show win1_1.index t (0 : Fin 2) * 1 + 1 * 0 = 0; omega
      | ⟨1, _⟩ => show win1_1.index t (1 : Fin 2) * 128 + 1 * k.val = k.val; omega
    · show V c main_v55 (((cfg1.win 2).blk t).view.emb (ix2 (0 : Fin 1) k)) = V c main_v55 _
      refine congrArg (V c main_v55) (funext fun a => Fin.ext ?_)
      match a with
      | ⟨0, _⟩ => show win1_2.index t (0 : Fin 2) * 1 + 1 * 0 = 0; omega
      | ⟨1, _⟩ => show win1_2.index t (1 : Fin 2) * 128 + 1 * k.val = k.val; omega
    · show V c main_v42 (((cfg1.win 3).blk t).view.emb (ix2 (0 : Fin 1) k)) = V c main_v42 _
      refine congrArg (V c main_v42) (funext fun a => Fin.ext ?_)
      match a with
      | ⟨0, _⟩ => show win1_3.index t (0 : Fin 2) * 1 + 1 * 0 = 0; omega
      | ⟨1, _⟩ => show win1_3.index t (1 : Fin 2) * 128 + 1 * k.val = k.val; omega
    · show V c main_v43 (((cfg1.win 4).blk t).view.emb (ix2 (0 : Fin 1) k)) = V c main_v43 _
      refine congrArg (V c main_v43) (funext fun a => Fin.ext ?_)
      match a with
      | ⟨0, _⟩ => show win1_4.index t (0 : Fin 2) * 1 + 1 * 0 = 0; omega
      | ⟨1, _⟩ => show win1_4.index t (1 : Fin 2) * 128 + 1 * k.val = k.val; omega
  · show V c main_v39 (((cfg1.win 5).blk t).view.emb (ix2 k q)) = V c main_v39 _
    refine congrArg (V c main_v39) (funext fun a => Fin.ext ?_)
    match a with
    | ⟨0, _⟩ => show win1_5.index t (0 : Fin 2) * 128 + 1 * k.val = k.val; omega
    | ⟨1, _⟩ => show win1_5.index t (1 : Fin 2) * 128 + 1 * q.val = win1_7.index t (1 : Fin 2) * 128 + 1 * q.val; omega
  · show V c main_v41 (((cfg1.win 6).blk t).view.emb (ix2 (0 : Fin 1) q)) = V c main_v41 _
    refine congrArg (V c main_v41) (funext fun a => Fin.ext ?_)
    match a with
    | ⟨0, _⟩ => show win1_6.index t (0 : Fin 2) * 1 + 1 * 0 = 0; omega
    | ⟨1, _⟩ => show win1_6.index t (1 : Fin 2) * 128 + 1 * q.val = win1_7.index t (1 : Fin 2) * 128 + 1 * q.val; omega

/-- An index is in point `t`'s block iff each coordinate is in the block's range on its axis. -/
theorem mem_second (t : Fin cfg1.N) (i : S100000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v56).slice (win1_7.rect t)).set ↔ _
  rw [View.set_slice_whole, Rect.mem_set_unit]
  exact Iff.rfl

/-- Every index is in the block of the point its row falls in. -/
theorem cover_second (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := onto_second ⟨(i 0).val / 10000, by omega⟩
  have q0 : win1_7.index t (0 : Fin 2) = (i 0).val / 10000 := congrFun ht 0
  have q1 : win1_7.index t (1 : Fin 2) = 0 := congrFun ht 1
  refine ⟨t, flush1_7 t, ?_⟩
  rw [mem_second]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 128 ≤ (i 1).val ∧ (i 1).val < win1_7.index t (1 : Fin 2) * 128 + 128; omega

/-- After the second call its result array is the affine layer of the normalized, rectified first operand, every
    operand as the call found it. -/
theorem second_array (c : Dev nD) :
    (dat1 V c).arrAt 7 cfg1.N = layer (act (V c main_v44) (V c main_v48) (V c main_v55) (V c main_v42) (V c main_v43))
      (V c main_v39) (V c main_v41) :=
  (dat1 V c).arrAt_eq_of_cover 7 _ (fun t _ => flushed_second V c t) cover_second

end Cert.KernelIdeal.Blocks

end
-- ==== Proof.LibRowLayouts.lean ====
/-
  Two layout facts about a one-row array, for any row length and any element type.

  (1) A one-row array `[1, N]` broadcast over `M` rows reads, at `(r, j)`, its entry `(0, j)`.
  (2) Giving a vector `[N]` a leading unit axis by a reshape is the same array as broadcasting it into `[1, N]` along
  the second axis: both read, at `(0, j)`, the vector's entry `j`.
-/
import Idealize.ShloMosaic.Lib.Pipeline.Value
import Idealize.ShloMosaic.Lib.ValueIdx

noncomputable section

namespace Cert.LibRowLayouts

open Idealize.ShloMosaic Idealize.ShloMosaic.ValueIdx

variable {M N : Nat} {α : Type}

/-- A one-row array broadcast over `M` rows reads its one row. -/
theorem rowBroadcast_apply (B : (⟨2, ![1, N]⟩ : Shape).Idx → α)
    (h : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h B (ix2 r j) = B (ix2 (0 : Fin 1) j) :=
  broadcastInDim_apply (![0, 1] : Fin 2 → Fin 2) h B (ix2 r j) (ix2 (0 : Fin 1) j) (fun a => by
    match a with
    | ⟨0, _⟩ => rfl
    | ⟨1, _⟩ =>
      show j.val = if N = 1 then 0 else j.val
      split
      · have := j.isLt; omega
      · rfl)

/-- The reshape of a vector to one row is its broadcast into one row along the second axis. -/
theorem rowCast_eq (b : (⟨1, ![N]⟩ : Shape).Idx → α) (h : (⟨1, ![N]⟩ : Shape).ShapeCasts ⟨2, ![1, N]⟩)
    (h' : (⟨1, ![N]⟩ : Shape).BroadcastsInDim ⟨2, ![1, N]⟩ (![1] : Fin 1 → Fin 2)) :
    shapeCast ⟨2, ![1, N]⟩ b h = broadcastInDim ⟨2, ![1, N]⟩ (![1] : Fin 1 → Fin 2) h' b := by
  funext i
  have hi : i = ix2 (i 0) (i 1) := eq_ix2 i
  have h0 : (i 0).val = 0 := by have h := (i 0).isLt; show (i 0).val = 0; change (i 0).val < 1 at h; omega
  rw [shapeCast_apply b h i (ix1 (i 1)) (by
    rw [Shape.rowMajor_val_one, Shape.rowMajor_val_two]
    show (i 1).val = (i 0).val * N + (i 1).val
    rw [h0]; omega)]
  exact (broadcastInDim_apply (![1] : Fin 1 → Fin 2) h' b i (ix1 (i 1)) (fun a => by
    match a with
    | ⟨0, _⟩ =>
      show (i 1).val = if N = 1 then 0 else (i 1).val
      split
      · rename_i hN; have h := (i 1).isLt; change (i 1).val < N at h; omega
      · rfl)).symm

end Cert.LibRowLayouts

end
-- ==== Proof.KernelEntry.lean ====
/-
  What the first pipelined call finds in the buffers it and the second call read, as functions of the arguments.

  Before the first call @main runs 54 host operations.  Read back through them, from the launch memory:
  the augmented features (the scatter-added neighbour sums plus the node's own features, plus (1 + eps) times the
  features) are the same operations, in the same order, as the reference's own; the two weight matrices are transposed;
  and each of the four per-channel vectors is reshaped to one row — which is the same row as broadcasting the vector
  into `[1, 128]`, the form the reference uses.
-/
import proofs.«122284_j27934467293294_1_alg».proof.Proof.Gen.KernelIdeal.Frame
import proofs.«122284_j27934467293294_1_alg».proof.Proof.Gen.ReferenceIdeal.Read
import proofs.«122284_j27934467293294_1_alg».proof.Proof.LibRowLayouts

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The augmented features are the reference's, operation for operation. -/
theorem features (c : Dev nD) : V1 m ρ c main_v37 = Cert.ReferenceIdeal.Read.val_main_v37 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v37) = _
  after_results_simp
  rfl

/-- The first weight matrix, transposed. -/
theorem first_weights (c : Dev nD) : V1 m ρ c main_v38 = Cert.ReferenceIdeal.Read.val_main_v38 (F := Ideal) (m ((c.tc : Thread nD τ).loc main_arg3)) := by
  show StableHlo.after hostOps0 (W0 m ρ c) (Proc.devRef .tc main_v38) = _
  after_results_simp
  rfl

/-- The first bias as a row. -/
theorem first_bias (c : Dev nD) : V1 m ρ c main_v40 = Cert.ReferenceIdeal.Read.val_main_v40 (F := Ideal) (m ((c.tc : Thread nD τ).loc main_arg4)) := by
  show StableHlo.after hostOps0 (W0 m ρ c) (Proc.devRef .tc main_v40) = _
  after_results_simp
  exact Cert.LibRowLayouts.rowCast_eq _ _ _

/-- The scale as a row. -/
theorem scale (c : Dev nD) : V1 m ρ c main_v42 = Cert.ReferenceIdeal.Read.val_main_v56 (F := Ideal) (m ((c.tc : Thread nD τ).loc main_arg5)) := by
  show StableHlo.after hostOps0 (W0 m ρ c) (Proc.devRef .tc main_v42) = _
  after_results_simp
  exact Cert.LibRowLayouts.rowCast_eq _ _ _

/-- The shift as a row. -/
theorem shift (c : Dev nD) : V1 m ρ c main_v43 = Cert.ReferenceIdeal.Read.val_main_v65 (F := Ideal) (m ((c.tc : Thread nD τ).loc main_arg6)) := by
  show StableHlo.after hostOps0 (W0 m ρ c) (Proc.devRef .tc main_v43) = _
  after_results_simp
  exact Cert.LibRowLayouts.rowCast_eq _ _ _

/-- The second weight matrix, transposed. -/
theorem second_weights (c : Dev nD) : V1 m ρ c main_v39 = Cert.ReferenceIdeal.Read.val_main_v69 (F := Ideal) (m ((c.tc : Thread nD τ).loc main_arg7)) := by
  show StableHlo.after hostOps0 (W0 m ρ c) (Proc.devRef .tc main_v39) = _
  after_results_simp
  rfl

/-- The second bias as a row. -/
theorem second_bias (c : Dev nD) : V1 m ρ c main_v41 = Cert.ReferenceIdeal.Read.val_main_v71 (F := Ideal) (m ((c.tc : Thread nD τ).loc main_arg8)) := by
  show StableHlo.after hostOps0 (W0 m ρ c) (Proc.devRef .tc main_v41) = _
  after_results_simp
  exact Cert.LibRowLayouts.rowCast_eq _ _ _

end Cert.KernelIdeal.Entry

end
-- ==== Proof.LibRowOf.lean ====
/-
  A vector laid out as one row, for any length, at the ideal instance where a quotient is involved.

  (1) A vector `[N]` broadcast into one row `[1, N]` along the second axis reads, at `(0, j)`, its entry `j`.
  (2) A scalar broadcast over any shape reads the scalar everywhere.
  (3) Dividing such a row by a scalar broadcast over the row is the row of the vector divided by the scalar broadcast
      over the vector: the host's elementwise quotient does not care whether the unit axis is added before or after.
-/
import Idealize.ShloMosaic.PureOps.Ideal.Laws
import Idealize.ShloMosaic.Lib.Pipeline.Value
import Idealize.ShloMosaic.Lib.ValueIdx

noncomputable section

namespace Cert.LibRowOf

open Idealize.ShloMosaic Idealize.ShloMosaic.ValueIdx

variable {N : Nat} {α : Type}

/-- A vector broadcast into one row reads, at `(0, j)`, its entry `j`. -/
theorem row_apply (b : (⟨1, ![N]⟩ : Shape).Idx → α)
    (h : (⟨1, ![N]⟩ : Shape).BroadcastsInDim ⟨2, ![1, N]⟩ (![1] : Fin 1 → Fin 2)) (j : Fin N) :
    broadcastInDim ⟨2, ![1, N]⟩ (![1] : Fin 1 → Fin 2) h b (ix2 (0 : Fin 1) j) = b (ix1 j) :=
  broadcastInDim_apply (![1] : Fin 1 → Fin 2) h b (ix2 (0 : Fin 1) j) (ix1 j) (fun a => by
    match a with
    | ⟨0, _⟩ =>
      show j.val = if N = 1 then 0 else j.val
      split
      · have := j.isLt; omega
      · rfl)

/-- A scalar broadcast over a shape reads the scalar at every index. -/
theorem splat_apply {s : Shape} (c : (⟨0, ![]⟩ : Shape).Idx → α)
    (h : (⟨0, ![]⟩ : Shape).BroadcastsInDim s (![] : Fin 0 → Fin s.rank)) (i : s.Idx) :
    broadcastInDim s (![] : Fin 0 → Fin s.rank) h c i = c ix0 :=
  broadcastInDim_apply (![] : Fin 0 → Fin s.rank) h c i ix0 (fun a => a.elim0)

/-- The quotient of a vector's row by a scalar's row is the row of the vector's quotient by the scalar. -/
theorem rowDiv_eq (s : FVec Ideal ⟨1, ![N]⟩ .f32) (c : FVec Ideal ⟨0, ![]⟩ .f32)
    (h1 : (⟨1, ![N]⟩ : Shape).BroadcastsInDim ⟨2, ![1, N]⟩ (![1] : Fin 1 → Fin 2))
    (h2 : (⟨0, ![]⟩ : Shape).BroadcastsInDim ⟨2, ![1, N]⟩ (![] : Fin 0 → Fin 2))
    (h3 : (⟨0, ![]⟩ : Shape).BroadcastsInDim ⟨1, ![N]⟩ (![] : Fin 0 → Fin 1)) :
    Host.divf (broadcastInDim ⟨2, ![1, N]⟩ (![1] : Fin 1 → Fin 2) h1 s) (broadcastInDim ⟨2, ![1, N]⟩ (![] : Fin 0 → Fin 2) h2 c)
      = broadcastInDim ⟨2, ![1, N]⟩ (![1] : Fin 1 → Fin 2) h1 (Host.divf s (broadcastInDim ⟨1, ![N]⟩ (![] : Fin 0 → Fin 1) h3 c)) := by
  funext i
  obtain ⟨z, j, rfl⟩ : ∃ (z : Fin 1) (j : Fin N), i = ix2 z j := ⟨i 0, i 1, eq_ix2 i⟩
  obtain rfl : z = 0 := Subsingleton.elim _ _
  show FloatOps.hostDivf (broadcastInDim ⟨2, ![1, N]⟩ (![1] : Fin 1 → Fin 2) h1 s (ix2 (0 : Fin 1) j))
      (broadcastInDim ⟨2, ![1, N]⟩ (![] : Fin 0 → Fin 2) h2 c (ix2 (0 : Fin 1) j)) = _
  rw [row_apply s h1 j, row_apply _ h1 j, splat_apply c h2]
  show _ = FloatOps.hostDivf (s (ix1 j)) (broadcastInDim ⟨1, ![N]⟩ (![] : Fin 0 → Fin 1) h3 c (ix1 j))
  rw [splat_apply c h3]

end Cert.LibRowOf

end
-- ==== Proof.KernelStats.lean ====
/-
  What the second pipelined call finds: the hidden array, the batch statistics as rows, and the operands that bypass.

  Between the calls @main runs 15 host operations on the hidden array `H` the first call left: the column sums over
  the 100000 rows divided by 100000 (the mean), and the column sums of the squared deviations divided by 100000 (the
  variance), each kept as one row.  The reference computes the same sums and quotients as vectors and adds the unit axis
  afterwards; dividing a row by a broadcast scalar is the row of the vector divided by that scalar, so when `H` is the
  reference's hidden array the kernel's mean row is the reference's mean laid out as a row, the deviations
  `H − mean` are the same array, and so is the variance row.  The four remaining operands are not written by these
  operations nor by the first call: they are as the first call found them.
-/
import proofs.«122284_j27934467293294_1_alg».proof.Proof.Gen.KernelIdeal.Frame
import proofs.«122284_j27934467293294_1_alg».proof.Proof.Gen.ReferenceIdeal.Read
import proofs.«122284_j27934467293294_1_alg».proof.Proof.LibRowOf

noncomputable section

namespace Cert.KernelIdeal.Stats

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The hidden array reaches the second call as the first call left it. -/
theorem hidden (c : Dev nD) : V3 m ρ c main_v44 = W2 m ρ c (Proc.devRef .tc main_v44) := by
  show StableHlo.after hostOps1 (W2 m ρ c) (Proc.devRef .tc main_v44) = _
  after_results

/-- The scale row bypasses the first call and the statistics. -/
theorem scale (c : Dev nD) : V3 m ρ c main_v42 = V1 m ρ c main_v42 := by
  show StableHlo.after hostOps1 (W2 m ρ c) (Proc.devRef .tc main_v42) = _
  after_results
  exact W2_of_ne m ρ c main_v42 (by decide)

/-- The shift row bypasses. -/
theorem shift (c : Dev nD) : V3 m ρ c main_v43 = V1 m ρ c main_v43 := by
  show StableHlo.after hostOps1 (W2 m ρ c) (Proc.devRef .tc main_v43) = _
  after_results
  exact W2_of_ne m ρ c main_v43 (by decide)

/-- The second weight matrix bypasses. -/
theorem second_weights (c : Dev nD) : V3 m ρ c main_v39 = V1 m ρ c main_v39 := by
  show StableHlo.after hostOps1 (W2 m ρ c) (Proc.devRef .tc main_v39) = _
  after_results
  exact W2_of_ne m ρ c main_v39 (by decide)

/-- The second bias row bypasses. -/
theorem second_bias (c : Dev nD) : V3 m ρ c main_v41 = V1 m ρ c main_v41 := by
  show StableHlo.after hostOps1 (W2 m ρ c) (Proc.devRef .tc main_v41) = _
  after_results
  exact W2_of_ne m ρ c main_v41 (by decide)

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S_, .f32⟩ : BufTy).Contents (Elt Ideal))
  (x3 : (⟨Cert.ReferenceIdeal.S128x128, .f32⟩ : BufTy).Contents (Elt Ideal))
  (x4 : (⟨Cert.ReferenceIdeal.S128, .f32⟩ : BufTy).Contents (Elt Ideal))

/-- When the hidden array is the reference's, the mean row is the reference's mean laid out as a row. -/
theorem mean_row (c : Dev nD)
    (hH : W2 m ρ c (Proc.devRef .tc main_v44) = Cert.ReferenceIdeal.Read.val_main_v42 (F := Ideal) x0 x1 x2 x3 x4) :
    V3 m ρ c main_v48 = Cert.ReferenceIdeal.Read.val_main_v46 (F := Ideal) x0 x1 x2 x3 x4 := by
  show StableHlo.after hostOps1 (W2 m ρ c) (Proc.devRef .tc main_v48) = _
  after_results
  rw [hH]
  exact Cert.LibRowOf.rowDiv_eq _ _ _ _ Cert.ReferenceIdeal.Gen.bcast_S_S128

/-- And the variance row is the reference's variance laid out as a row. -/
theorem var_row (c : Dev nD)
    (hH : W2 m ρ c (Proc.devRef .tc main_v44) = Cert.ReferenceIdeal.Read.val_main_v42 (F := Ideal) x0 x1 x2 x3 x4) :
    V3 m ρ c main_v55 = broadcastInDim Cert.ReferenceIdeal.S1x128 ![1] Cert.ReferenceIdeal.Gen.bcast_S128_S1x128_1
      (Cert.ReferenceIdeal.Read.val_main_v52 (F := Ideal) x0 x1 x2 x3 x4) := by
  show StableHlo.after hostOps1 (W2 m ρ c) (Proc.devRef .tc main_v55) = _
  after_results
  rw [hH]
  simp only [Cert.LibRowOf.rowDiv_eq _ _ _ _ Cert.ReferenceIdeal.Gen.bcast_S_S128]
  rfl

end Cert.KernelIdeal.Stats

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«122284_j27934467293294_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«122284_j27934467293294_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.Reference.lean ====
/-
  The reference's stages, read as the two whole-array functions.

  With the reference's host operations taken one at a time:
  * its first `dot_general` plus the broadcast bias vector is the affine layer of the augmented features, the transposed
    first weight matrix and the bias laid out as a row;
  * its product of the broadcast scale with the centred features, times the broadcast `rsqrt (variance + ε)`, plus the
    broadcast shift, then the maximum with a broadcast zero, is the normalize–scale–shift–rectify function of that hidden
    array with the four per-channel vectors laid out as rows — a vector broadcast to a row and then down the rows reads
    its own entry, and the host's `rsqrt` is the same function as the kernel's;
  * its second `dot_general` plus bias is the affine layer again.
-/
import proofs.«122284_j27934467293294_1_alg».proof.Proof.Gen.ReferenceIdeal.Read
import proofs.«122284_j27934467293294_1_alg».proof.Proof.LibHostAffine
import proofs.«122284_j27934467293294_1_alg».proof.Proof.LibRowOf
import proofs.«122284_j27934467293294_1_alg».proof.Proof.Spec

noncomputable section

open scoped BigOperators

namespace Cert.ReferenceIdeal.Stages

open Cert.ReferenceIdeal Cert.ReferenceIdeal.Gen Cert.ReferenceIdeal.Read Idealize.ShloMosaic Idealize.ShloMosaic.ValueIdx
open Cert.BatchNormMlp Cert.LibRowOf Cert.LibHostAffine

variable (x0 : (⟨S100000x128, .f32⟩ : BufTy).Contents (Elt Ideal)) (x1 : (⟨S2x1600000, .i32⟩ : BufTy).Contents (Elt Ideal))
  (x2 : (⟨S_, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal))

/-- The batch variance as a row: the reference keeps it as a vector, the kernel's operand is a row. -/
abbrev varRow : (⟨S1x128, .f32⟩ : BufTy).Contents (Elt Ideal) :=
  broadcastInDim S1x128 ![1] bcast_S128_S1x128_1 (val_main_v52 (F := Ideal) x0 x1 x2 x3 x4)

/-- The hidden array is the affine layer of the augmented features. -/
theorem hidden_eq : val_main_v42 (F := Ideal) x0 x1 x2 x3 x4
    = layer (val_main_v37 x0 x1 x2) (val_main_v38 x3) (val_main_v40 x4) := by
  funext i
  obtain ⟨r, j, rfl⟩ : ∃ (r : Fin 100000) (j : Fin 128), i = ix2 r j := ⟨i 0, i 1, eq_ix2 i⟩
  unfold val_main_v42 val_main_v39 val_main_v41 val_main_v40
  refine (affine_apply dot_S100000x128_S128x128_S100000x128_1_0_0_1_n_n rfl rfl rfl rfl rfl rfl none _ _ x4 _ _ r j).trans ?_
  show _ = layerAt _ _ _ r j
  unfold layerAt
  rw [row_apply x4 bcast_S128_S1x128_1 j]

/-- The rectified array is the normalize–scale–shift–rectify function of the hidden array. -/
theorem rect_eq : val_main_v68 (F := Ideal) x0 x1 x2 x3 x4 x5 x6
    = act (val_main_v42 x0 x1 x2 x3 x4) (val_main_v46 x0 x1 x2 x3 x4) (varRow x0 x1 x2 x3 x4)
        (val_main_v56 x5) (val_main_v65 x6) := by
  funext i
  obtain ⟨r, k, rfl⟩ : ∃ (r : Fin 100000) (k : Fin 128), i = ix2 r k := ⟨i 0, i 1, eq_ix2 i⟩
  unfold val_main_v68 val_main_call0_v0 val_main_call0_cst
  refine (relu_apply _ _ _).trans ?_
  show _ = actAt _ _ _ _ _ r k
  unfold actAt
  refine congrArg (max · 0) ?_
  unfold val_main_v67 val_main_v64 val_main_v58 val_main_v55 val_main_v66 val_main_v57 val_main_v54 val_main_v53
    val_main_v63 val_main_v62 val_main_v61 val_main_v60 val_main_v59 val_main_cst_12 val_main_v65 val_main_v56
    val_main_v46 varRow
  simp only [addf_apply, mulf_apply, subf_apply, bias_apply, row_apply]
  show _ * _ * Ideal.rsqrt (val_main_v52 x0 x1 x2 x3 x4 (ix1 k)
      + broadcastInDim S128 ![] bcast_S_S128 (constant (F := Ideal) S_ .f32 0x3727C5AC#32) (ix1 k)) + _ = _
  rw [splat_apply]
  rfl

/-- The result is the affine layer of the rectified array. -/
theorem out_eq : val_main_v73 (F := Ideal) x0 x1 x2 x3 x4 x5 x6 x7 x8
    = layer (val_main_v68 x0 x1 x2 x3 x4 x5 x6) (val_main_v69 x7) (val_main_v71 x8) := by
  funext i
  obtain ⟨r, j, rfl⟩ : ∃ (r : Fin 100000) (j : Fin 128), i = ix2 r j := ⟨i 0, i 1, eq_ix2 i⟩
  unfold val_main_v73 val_main_v70 val_main_v72 val_main_v71
  refine (affine_apply dot_S100000x128_S128x128_S100000x128_1_0_0_1_n_n rfl rfl rfl rfl rfl rfl none _ _ x8 _ _ r j).trans ?_
  show _ = layerAt _ _ _ r j
  unfold layerAt
  rw [row_apply x8 bcast_S128_S1x128_1 j]

end Cert.ReferenceIdeal.Stages

end
-- ==== Proof.KernelValue.lean ====
/-
  The idealized kernel's result is the reference's last stage of the same arguments.

  Walking the boundaries of @main backwards from the result buffer: after the second call it holds the affine layer of
  the normalized, rectified hidden array, every operand as that call found it; the hidden array it found is what the
  first call left, the affine layer of the augmented features; the statistics rows it found are the reference's mean
  and variance of that hidden array laid out as rows; the other operands are the transposed weights and the
  per-channel vectors as rows.  Each of these is a stage of the reference, so the composite is the reference's result.
-/
import proofs.«122284_j27934467293294_1_alg».proof.Proof.KernelBlocks
import proofs.«122284_j27934467293294_1_alg».proof.Proof.KernelEntry
import proofs.«122284_j27934467293294_1_alg».proof.Proof.KernelStats
import proofs.«122284_j27934467293294_1_alg».proof.Proof.Reference

noncomputable section

namespace Cert.KernelIdeal.ResultValue

open Cert.KernelIdeal Cert.KernelIdeal.Gen Idealize.ShloMosaic Idealize.ShloMosaic.TcCoe Idealize.SL.Sem
open Cert.BatchNormMlp

variable (m : (ℓ : Loc nD τ sig) → Buf (Elt Ideal) ℓ) (ρ : Dev nD → PrngReg)

/-- What the first call leaves in its result array is the reference's hidden array of the arguments. -/
theorem hidden (c : Dev nD) : W2 m ρ c (Proc.devRef .tc main_v44)
    = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.ReferenceIdeal.Stages.hidden_eq, ← Entry.features m ρ c, ← Entry.first_weights m ρ c,
    ← Entry.first_bias m ρ c]
  exact (W2_arr m ρ c 3).trans (Blocks.first_array (V1 m ρ) c)

/-- The result buffer at the last boundary is the reference's result of the arguments. -/
theorem result (c : Dev nD) : W4 m ρ c (Proc.devRef .tc main_v56)
    = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.ReferenceIdeal.Stages.out_eq, Cert.ReferenceIdeal.Stages.rect_eq]
  unfold Cert.ReferenceIdeal.Stages.varRow
  rw [← Stats.mean_row m ρ _ _ _ _ _ c (hidden m ρ c), ← Stats.var_row m ρ _ _ _ _ _ c (hidden m ρ c),
    ← hidden m ρ c, ← Stats.hidden m ρ c,
    ← Entry.scale m ρ c, ← Entry.shift m ρ c, ← Entry.second_weights m ρ c, ← Entry.second_bias m ρ c,
    ← Stats.scale m ρ c, ← Stats.shift m ρ c, ← Stats.second_weights m ρ c, ← Stats.second_bias m ρ c]
  exact (W4_arr m ρ c 7).trans (Blocks.second_array (V3 m ρ) c)

end Cert.KernelIdeal.ResultValue

end
-- ==== Proof.lean ====
/-
  Two affine layers with a batch normalization and a rectifier between them, over 100000 nodes of 128 channels, after a
  neighbour aggregation: the kernel program against its reference, as functions on the extended reals.

  The kernel program does the aggregation with the same host operations as the reference, then runs two pipelined
  calls over ten row blocks of 10000 rows: the first computes the hidden array `x · W1ᵀ + b1` block by block; between
  the calls the host computes the column means and variances of the whole hidden array; the second normalizes, scales,
  shifts, rectifies and applies `· W2ᵀ + b2`, again block by block.  A block's rows depend only on the same rows of the
  operand (and on whole small operands), the ten blocks cover the array, and a matrix product into a zero accumulator
  is the same sum as the host's contraction; changes of float format are the identity at the ideal instance.  So entry
  by entry both programs compute

      out (r, j) = (∑ k, max ((γ k · (H (r, k) − μ k)) · rsqrt (v k + ε) + β k) 0 · W2 (j, k)) + b2 j,
      H (r, k)   = (∑ l, X (r, l) · W1 (k, l)) + b1 k,

  with `X` the augmented features and `μ`, `v` the column mean and variance of `H`, every operation applied in the same
  order on both sides: no law of arithmetic is needed, only the reading of each layout, and the precondition is not
  opened.

  The three frames are the generated ones (the reference's is its generated run with the result dropped); the
  idealization rewrote no operation, so `preserves` is `True`.
-/
import proofs.«122284_j27934467293294_1_alg».proof.Defs
import proofs.«122284_j27934467293294_1_alg».proof.Proof.Gen.Kernel
import proofs.«122284_j27934467293294_1_alg».proof.Proof.Gen.Kernel.Frame
import proofs.«122284_j27934467293294_1_alg».proof.Proof.Gen.KernelIdeal
import proofs.«122284_j27934467293294_1_alg».proof.Proof.Gen.KernelIdeal.Frame
import proofs.«122284_j27934467293294_1_alg».proof.Proof.Gen.ReferenceIdeal
import proofs.«122284_j27934467293294_1_alg».proof.Proof.Gen.Pre_finite_inputs
import proofs.«122284_j27934467293294_1_alg».proof.Proof.Gen.ReferenceIdeal.Run
import proofs.«122284_j27934467293294_1_alg».proof.Proof.Gen.ReferenceIdeal.Read
import proofs.«122284_j27934467293294_1_alg».proof.Proof.KernelRun
import proofs.«122284_j27934467293294_1_alg».proof.Proof.KernelValue
import Idealize.ShloMosaic.Adequacy
import Idealize.ShloMosaic.Init

noncomputable section

namespace Cert.Proof

open Idealize.ShloMosaic Idealize.ShloMosaic.TcCoe Idealize.SL.Sem

/-- Run from memories agreeing on the arguments, both idealized programs end with the reference's last stage of those
    arguments in their result buffers, and their arguments unchanged. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v73 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.ResultValue.result m ρ c), (h c).2⟩)
      (Cert.KernelIdeal.Run.result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v73_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
